-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x512 : Shape := ⟨3, ![16, 1024, 512]⟩
abbrev S_ : Shape := ⟨0, ![]⟩

class Facts : Prop where
  bcast_S_S16x1024x512 : S_.BroadcastsInDim S16x1024x512 (![] : Fin 0 → Fin S16x1024x512.rank)
  reducesTo_S16x1024x512_S_d0_1_2 : S16x1024x512.ReducesTo [0, 1, 2] S_
  h_S_ : 0 < S_.numel

variable [Facts]

def fn {F : FTy → Type} [FloatOps F] (main_arg0 : FVec F S16x1024x512 .f32) (main_arg1 : FVec F S16x1024x512 .f32) : IVec S_ 1 :=
  let main_v0 : FVec F S16x1024x512 .f32 := Host.absf main_arg0
  let main_cst : FVec F S_ .f32 := constant S_ .f32 0x7F800000#32
  let main_v1 : FVec F S16x1024x512 .f32 := broadcastInDim S16x1024x512 ![] bcast_S_S16x1024x512 main_cst
  let main_v2 : IVec S16x1024x512 1 := cmpf .olt main_v0 main_v1
  let main_c : IVec S_ 1 := constantI S_ 1 1#1
  let main_v3 : IVec S_ 1 := (fun x v => Host.reduce IntOp.andi x v reducesTo_S16x1024x512_S_d0_1_2 h_S_) main_v2 main_c
  let main_v4 : FVec F S16x1024x512 .f32 := Host.absf main_arg1
  let main_cst_0 : FVec F S_ .f32 := constant S_ .f32 0x7F800000#32
  let main_v5 : FVec F S16x1024x512 .f32 := broadcastInDim S16x1024x512 ![] bcast_S_S16x1024x512 main_cst_0
  let main_v6 : IVec S16x1024x512 1 := cmpf .olt main_v4 main_v5
  let main_c_1 : IVec S_ 1 := constantI S_ 1 1#1
  let main_v7 : IVec S_ 1 := (fun x v => Host.reduce IntOp.andi x v reducesTo_S16x1024x512_S_d0_1_2 h_S_) main_v6 main_c_1
  let main_v8 : IVec S_ 1 := andi main_v3 main_v7
  main_v8
-- ==== Kernel.lean ====
abbrev S16x1024x512 : Shape := ⟨3, ![16, 1024, 512]⟩
abbrev S_ : Shape := ⟨0, ![]⟩
abbrev S16x1024 : Shape := ⟨2, ![16, 1024]⟩
abbrev S16x1024x1 : Shape := ⟨3, ![16, 1024, 1]⟩
abbrev S16x1x1024 : Shape := ⟨3, ![16, 1, 1024]⟩
abbrev S16x1024x1024 : Shape := ⟨3, ![16, 1024, 1024]⟩
abbrev S1x1024x512 : Shape := ⟨3, ![1, 1024, 512]⟩
abbrev S1x1x1024 : Shape := ⟨3, ![1, 1, 1024]⟩
abbrev S1x1024x1024 : Shape := ⟨3, ![1, 1024, 1024]⟩
abbrev S1024x512 : Shape := ⟨2, ![1024, 512]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S16x1024x512, .f32⟩
  | .hbm, ⟨1, _⟩ => ⟨S16x1024x512, .f32⟩
  | .hbm, ⟨2, _⟩ => ⟨S16x1024x512, .f32⟩
  | .hbm, ⟨3, _⟩ => ⟨S_, .f32⟩
  | .hbm, ⟨4, _⟩ => ⟨S16x1024, .f32⟩
  | .hbm, ⟨5, _⟩ => ⟨S16x1024x1, .f32⟩
  | .hbm, ⟨6, _⟩ => ⟨S16x1x1024, .f32⟩
  | .hbm, ⟨7, _⟩ => ⟨S16x1024x1024, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .f32⟩
  | .local _ .vmem, ⟨7, _⟩ => ⟨S1x1024x1024, .f32⟩
  | _, _ => ⟨S16x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S16x1024x512_S16x1024_d2 : S16x1024x512.ReducesTo [2] S16x1024
  h_S_ : 0 < S_.numel
  bcast_S16x1024_S16x1024x1_0_1 : S16x1024.BroadcastsInDim S16x1024x1 (![0, 1] : Fin 2 → Fin S16x1024x1.rank)
  transposes_S16x1024x1_S16x1x1024_0_2_1 : S16x1024x1.Transposes [0, 2, 1] S16x1x1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  reduces_S1024x512_S1024 : S1024x512.Reduces [1] S1024
  shapeCasts_S1024_S1024x1 : S1024.ShapeCasts S1024x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S16x1024x512.size a
  hwx0_0 : ∀ i : grid0.Coords, EltTy.bits .f32 = 32 ∨ (Rect.block (s := S16x1024x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S16x1024x512.size a
  hwx0_1 : ∀ i : grid0.Coords, EltTy.bits .f32 = 32 ∨ (Rect.block (s := S16x1024x512) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S16x1x1024.size a
  hwx0_2 : ∀ i : grid0.Coords, EltTy.bits .f32 = 32 ∨ (Rect.block (s := S16x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S16x1024x1024.size a
  hwx0_3 : ∀ i : grid0.Coords, EltTy.bits .f32 = 32 ∨ (Rect.block (s := S16x1024x1024) S1x1024x1024.size (cc0_transform_3 i) (hinb0_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x1024x512 : Shape := ⟨3, ![16, 1024, 512]⟩
abbrev S_ : Shape := ⟨0, ![]⟩
abbrev S16x1024 : Shape := ⟨2, ![16, 1024]⟩
abbrev S16x1024x1024 : Shape := ⟨3, ![16, 1024, 1024]⟩
abbrev S16x1024x1 : Shape := ⟨3, ![16, 1024, 1]⟩
abbrev S16x1x1024 : Shape := ⟨3, ![16, 1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S16x1024x512, .f32⟩
  | .hbm, ⟨1, _⟩ => ⟨S16x1024x512, .f32⟩
  | .hbm, ⟨2, _⟩ => ⟨S16x1024x512, .f32⟩
  | .hbm, ⟨3, _⟩ => ⟨S_, .f32⟩
  | .hbm, ⟨4, _⟩ => ⟨S16x1024, .f32⟩
  | .hbm, ⟨5, _⟩ => ⟨S16x1024x512, .f32⟩
  | .hbm, ⟨6, _⟩ => ⟨S_, .f32⟩
  | .hbm, ⟨7, _⟩ => ⟨S16x1024, .f32⟩
  | .hbm, ⟨8, _⟩ => ⟨S16x1024x1024, .f32⟩
  | .hbm, ⟨9, _⟩ => ⟨S16x1024x1, .f32⟩
  | .hbm, ⟨10, _⟩ => ⟨S16x1x1024, .f32⟩
  | .hbm, ⟨11, _⟩ => ⟨S16x1024x1024, .f32⟩
  | .hbm, ⟨12, _⟩ => ⟨S16x1024x1024, .f32⟩
  | .hbm, ⟨13, _⟩ => ⟨S16x1024x1024, .f32⟩
  | .hbm, ⟨14, _⟩ => ⟨S_, .f32⟩
  | .hbm, ⟨15, _⟩ => ⟨S16x1024x1024, .f32⟩
  | .hbm, ⟨16, _⟩ => ⟨S16x1024x1024, .f32⟩
  | .hbm, ⟨17, _⟩ => ⟨S16x1024x1024, .f32⟩
  | .hbm, ⟨18, _⟩ => ⟨S_, .f32⟩
  | .hbm, ⟨19, _⟩ => ⟨S16x1024x1024, .f32⟩
  | .hbm, ⟨20, _⟩ => ⟨S16x1024x1024, .f32⟩
  | .hbm, ⟨21, _⟩ => ⟨S16x1024x1024, .f32⟩
  | _, _ => ⟨S16x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S16x1024x512_S16x1024_d2 : S16x1024x512.ReducesTo [2] S16x1024
  h_S_ : 0 < S_.numel
  bcast_S16x1024_S16x1024x1_0_1 : S16x1024.BroadcastsInDim S16x1024x1 (![0, 1] : Fin 2 → Fin S16x1024x1.rank)
  bcast_S16x1024_S16x1x1024_0_2 : S16x1024.BroadcastsInDim S16x1x1024 (![0, 2] : Fin 2 → Fin S16x1x1024.rank)
  bcast_S16x1024x1_S16x1024x1024_0_1_2 : S16x1024x1.BroadcastsInDim S16x1024x1024 (![0, 1, 2] : Fin 3 → Fin S16x1024x1024.rank)
  bcast_S16x1x1024_S16x1024x1024_0_1_2 : S16x1x1024.BroadcastsInDim S16x1024x1024 (![0, 1, 2] : Fin 3 → Fin S16x1024x1024.rank)
  bcast_S_S16x1024x1024 : S_.BroadcastsInDim S16x1024x1024 (![] : Fin 0 → Fin S16x1024x1024.rank)
  dot_S16x1024x512_S16x1024x512_S16x1024x1024_2_2_1_1_0_0_wf : DotDims.WF S16x1024x512 S16x1024x512 S16x1024x1024 [2] [2] [1] [1] [0] [0]

variable [Facts₀]

def dot_S16x1024x512_S16x1024x512_S16x1024x1024_2_2_1_1_0_0 : DotDims S16x1024x512 S16x1024x512 S16x1024x1024 where
  lhsContracting := [2]
  rhsContracting := [2]
  lhsNonContracting := [1]
  rhsNonContracting := [1]
  lhsBatch := [0]
  rhsBatch := [0]
  wf := dot_S16x1024x512_S16x1024x512_S16x1024x1024_2_2_1_1_0_0_wf

class Facts : Prop extends Facts₀ where

variable [Facts]
-- ==== Proof.Distance.lean ====
/-
  The function both programs compute. For a batch `b`, a row `p` of the first array and a row `q` of the second (each
  row a vector of 512 entries), the Euclidean distance between the two rows, written through the expansion
  |x − y|² = |x|² + |y|² − 2⟨x, y⟩: the two squared lengths are added, twice the inner product is taken away, the
  difference is clamped at zero and the root is taken. Everything is over the extended reals; no law beyond the
  definitions is used here, so nothing is assumed finite.
-/
import Idealize.ShloMosaic.PureOps.Ideal
import Idealize.ShloMosaic.Lib.ValueIdx

noncomputable section

open scoped BigOperators

namespace Cert.PairDist

open Idealize.ShloMosaic Idealize.ShloMosaic.ValueIdx

/-- Each argument: 16 batches of 1024 rows of 512 entries. -/
abbrev Rows : Shape := ⟨3, ![16, 1024, 512]⟩
/-- The result: per batch, a 1024 × 1024 table, entry (p, q) the distance between row p and row q. -/
abbrev Table : Shape := ⟨3, ![16, 1024, 1024]⟩

/-- The squared length of row `r` of batch `b`: the sum of the squares of its 512 entries. -/
def sqLen (x : Rows.Idx → EReal) (b : Fin 16) (r : Fin 1024) : EReal :=
  ∑ k : Fin 512, x (ix3 b r k) * x (ix3 b r k)

/-- The inner product of row `p` of `x` with row `q` of `y`, both of batch `b`. -/
def inner (x y : Rows.Idx → EReal) (b : Fin 16) (p q : Fin 1024) : EReal :=
  ∑ k : Fin 512, x (ix3 b p k) * y (ix3 b q k)

/-- The distance between row `p` of `x` and row `q` of `y`: √ max (|x_p|² + |y_q|² − 2⟨x_p, y_q⟩, 0). The two
    constants are kept as the float words for 2 and 0: both programs spell the same words, so their values are never needed. -/
def distAt (x y : Rows.Idx → EReal) (b : Fin 16) (p q : Fin 1024) : EReal :=
  Ideal.sqrt (max (sqLen x b p + sqLen y b q - Ideal.ofBits .f32 0x40000000#32 * inner x y b p q) (Ideal.ofBits .f32 0x00000000#32))

/-- The whole table of distances. -/
def dist (x y : Rows.Idx → EReal) : Table.Idx → EReal := fun i => distAt x y (i 0) (i 1) (i 2)

theorem dist_ix3 (x y : Rows.Idx → EReal) (b : Fin 16) (p q : Fin 1024) : dist x y (ix3 b p q) = distAt x y b p q := rfl

end Cert.PairDist

end
-- ==== Proof.ReferenceDistance.lean ====
/-
  The reference computes the table of distances. Its result is read one operation at a time: the two row-wise sums of
  squares (each started from the zero word, which adds nothing), spread along the other row axis; the batched product
  of the two arrays contracted over the 512 entries of a row, which at an entry (b, p, q) is the inner product of
  row p with row q; then the same sum, difference, clamp and root as in the definition.
-/
import proofs.«182139_j22548578304599_2_alg».proof.Proof.Gen.ReferenceIdeal.Read
import proofs.«182139_j22548578304599_2_alg».proof.Proof.Distance

noncomputable section

open scoped BigOperators

namespace Cert.PairDist.Reference

open Cert.ReferenceIdeal Cert.ReferenceIdeal.Read Idealize.ShloMosaic Idealize.ShloMosaic.ValueIdx

/-- The sum over a row of the first array's squares is that row's squared length. -/
theorem sums_first (x : (⟨S16x1024x512, .f32⟩ : BufTy).Contents (Elt Ideal)) (b : Fin 16) (p : Fin 1024) :
    val_main_v1 (F := Ideal) x (ix2 b p) = sqLen x b p := by
  rw [val_main_v1_apply]
  show Ideal.ofBits .f32 0x00000000#32 + ∑ k : Fin 512, x (idx_main_v1 (ix2 b p) k) * x (idx_main_v1 (ix2 b p) k) = _
  rw [Ideal.ofBits_zero_f32, zero_add]
  refine Finset.sum_congr rfl fun k _ => ?_
  have e : idx_main_v1 (ix2 b p) k = ix3 b p k :=
    funext fun a => Fin.ext (by match a with | ⟨0, _⟩ => rfl | ⟨1, _⟩ => rfl | ⟨2, _⟩ => rfl)
  rw [e]

/-- The sum over a row of the second array's squares is that row's squared length. -/
theorem sums_second (y : (⟨S16x1024x512, .f32⟩ : BufTy).Contents (Elt Ideal)) (b : Fin 16) (q : Fin 1024) :
    val_main_v3 (F := Ideal) y (ix2 b q) = sqLen y b q := by
  rw [val_main_v3_apply]
  show Ideal.ofBits .f32 0x00000000#32 + ∑ k : Fin 512, y (idx_main_v3 (ix2 b q) k) * y (idx_main_v3 (ix2 b q) k) = _
  rw [Ideal.ofBits_zero_f32, zero_add]
  refine Finset.sum_congr rfl fun k _ => ?_
  have e : idx_main_v3 (ix2 b q) k = ix3 b q k :=
    funext fun a => Fin.ext (by match a with | ⟨0, _⟩ => rfl | ⟨1, _⟩ => rfl | ⟨2, _⟩ => rfl)
  rw [e]

/-- The first array's squared lengths spread over the table: entry (b, p, q) holds the squared length of row p. -/
theorem spread_first (x : (⟨S16x1024x512, .f32⟩ : BufTy).Contents (Elt Ideal)) (b : Fin 16) (p q : Fin 1024) :
    val_main_v7 (F := Ideal) x (ix3 b p q) = sqLen x b p := by
  rw [val_main_v7_apply, val_main_v5_apply]
  have e : idx_main_v5 (idx_main_v7 (ix3 b p q)) = ix2 b p :=
    funext fun a => Fin.ext (by match a with | ⟨0, _⟩ => rfl | ⟨1, _⟩ => rfl)
  rw [e, sums_first]

/-- The second array's squared lengths spread over the table: entry (b, p, q) holds the squared length of row q. -/
theorem spread_second (y : (⟨S16x1024x512, .f32⟩ : BufTy).Contents (Elt Ideal)) (b : Fin 16) (p q : Fin 1024) :
    val_main_v8 (F := Ideal) y (ix3 b p q) = sqLen y b q := by
  rw [val_main_v8_apply, val_main_v6_apply]
  have e : idx_main_v6 (idx_main_v8 (ix3 b p q)) = ix2 b q :=
    funext fun a => Fin.ext (by match a with | ⟨0, _⟩ => rfl | ⟨1, _⟩ => rfl)
  rw [e, sums_second]

/-- The batched product at (b, p, q) is the inner product of row p of the first array with row q of the second. -/
theorem product (x y : (⟨S16x1024x512, .f32⟩ : BufTy).Contents (Elt Ideal)) (b : Fin 16) (p q : Fin 1024) :
    val_main_v4 (F := Ideal) x y (ix3 b p q) = inner x y b p q := by
  rw [val_main_v4_apply]
  refine Finset.sum_congr rfl fun k _ => ?_
  have el : lidx_main_v4 (ix3 b p q) k = ix3 b p k :=
    funext fun a => Fin.ext (by match a with | ⟨0, _⟩ => rfl | ⟨1, _⟩ => rfl | ⟨2, _⟩ => rfl)
  have er : ridx_main_v4 (ix3 b p q) k = ix3 b q k :=
    funext fun a => Fin.ext (by match a with | ⟨0, _⟩ => rfl | ⟨1, _⟩ => rfl | ⟨2, _⟩ => rfl)
  rw [el, er]

/-- The splat of the word for 2. -/
theorem two (i : S16x1024x1024.Idx) : val_main_v10 (F := Ideal) i = Ideal.ofBits .f32 0x40000000#32 := by
  rw [val_main_v10_apply]; rfl

/-- The splat of the word for 0. -/
theorem zero (i : S16x1024x1024.Idx) : val_main_v13 (F := Ideal) i = Ideal.ofBits .f32 0x00000000#32 := by
  rw [val_main_v13_apply]; rfl

/-- The reference's result is the table of distances. -/
theorem result_eq (x y : (⟨S16x1024x512, .f32⟩ : BufTy).Contents (Elt Ideal)) :
    val_main_v15 (F := Ideal) x y = dist x y := by
  funext i
  obtain ⟨b, p, q, rfl⟩ : ∃ (b : Fin 16) (p q : Fin 1024), i = ix3 b p q := ⟨i 0, i 1, i 2, eq_ix3 i⟩
  rw [val_main_v15_apply, val_main_v14_apply, val_main_v12_apply, val_main_v9_apply, val_main_v11_apply,
    spread_first, spread_second, product, two, zero]
  rfl

end Cert.PairDist.Reference

end
-- ==== Proof.BodyDistance.lean ====
/-
  What the kernel's body stores, read at one entry. The body works on one batch: a block of 1024 rows of the first
  array, a block of 1024 rows of the second, and a row of 1024 numbers (which the program fills with the second block's
  squared lengths before the call). Entry (p, q) of what it stores is
      √ max ((Σ_k x[p,k]² + r[q]) − 2 · Σ_k x[p,k] · y[q,k], 0):
  the lane sum of the first block's squares at row p, spread along the columns; the given row at q, spread along the
  rows; and the matrix product of the two blocks contracted over a row's 512 entries into a zero accumulator (the
  narrowing of its operands to a shorter float format changes nothing over the extended reals).
-/
import proofs.«182139_j22548578304599_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.PairDist.Body

open Cert.KernelIdeal Cert.KernelIdeal.Gen Idealize.ShloMosaic Idealize.ShloMosaic.ValueIdx

/-- The lane sum of a block's squares, as a column, spread over the columns of the table: entry (p, q) is the sum
    over k of the block's entry (p, k) squared. -/
theorem laneSums_at (x : Vec Ideal S1x1024x512 .f32) (hφ : FKind.Formats .f32)
    (hacc : (0x00000000#32 : BitVec 32) = FKind.add.neutral .f32 hφ) (p q : Fin 1024) :
    broadcastTo S1024x1024 (shapeCast S1024x1 (multiReduction (F := Ideal) .add [1] S1024
        (mulf (shapeCast S1024x512 x shapeCasts_S1x1024x512_S1024x512) (shapeCast S1024x512 x shapeCasts_S1x1024x512_S1024x512))
        0x00000000#32 reduces_S1024x512_S1024 hφ hacc) shapeCasts_S1024_S1024x1) broadcasts_S1024x1_S1024x1024 (ix2 p q)
      = ∑ k : Fin 512, x (ix3 (0 : Fin 1) p k) * x (ix3 (0 : Fin 1) p k) := by
  refine (broadcastTo_apply _ broadcasts_S1024x1_S1024x1024 (ix2 p q) (ix2 p (0 : Fin 1)) (fun a => ?_)).trans ?_
  · match a with
    | ⟨0, _⟩ => show p.val = if (1024 : Nat) = 1 then 0 else p.val; rw [if_neg (by decide)]
    | ⟨1, _⟩ => show (0 : Nat) = if (1 : Nat) = 1 then 0 else q.val; rw [if_pos rfl]
  refine (shapeCast_apply _ shapeCasts_S1024_S1024x1 (ix2 p (0 : Fin 1)) (ix1 p) ?_).trans ?_
  · rw [Shape.rowMajor_val_one, Shape.rowMajor_val_two]
    show p.val = p.val * 1 + 0
    omega
  refine (Ideal.multiReduction_add_single _ 0x00000000#32 reduces_S1024x512_S1024 hφ hacc (ix1 p)).trans ?_
  refine Finset.sum_congr rfl fun (k : Fin 512) _ => ?_
  have e : reduces_S1024x512_S1024.lift (ix1 p) k = ix2 p k :=
    funext fun a => Fin.ext (by match a with | ⟨0, _⟩ => rfl | ⟨1, _⟩ => rfl)
  rw [e]
  show shapeCast S1024x512 x shapeCasts_S1x1024x512_S1024x512 (ix2 p k) * shapeCast S1024x512 x shapeCasts_S1x1024x512_S1024x512 (ix2 p k) = _
  rw [shapeCast_1ab_ab_apply x shapeCasts_S1x1024x512_S1024x512 p k]

/-- The given row spread over the rows of the table: entry (p, q) is the row's entry q. -/
theorem givenRow_at (r : Vec Ideal S1x1x1024 .f32) (p q : Fin 1024) :
    broadcastTo S1024x1024 (shapeCast S1x1024 r shapeCasts_S1x1x1024_S1x1024) broadcasts_S1x1024_S1024x1024 (ix2 p q)
      = r (ix3 (0 : Fin 1) (0 : Fin 1) q) :=
  (broadcastTo_1b_ab_apply _ broadcasts_S1x1024_S1024x1024 p q).trans
    (shapeCast_1ab_ab_apply r shapeCasts_S1x1x1024_S1x1024 (0 : Fin 1) q)

/-- The product's left operand at entry (p, q) and contraction position k is read at row p … -/
theorem lhs_row (i : S1024x1024.Idx) (k : dot_S1024x512_S1024x512_S1024x1024_1_1_0_0_n_n.contr.Idx) : (dot_S1024x512_S1024x512_S1024x1024_1_1_0_0_n_n.lhsIdx i k 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
/-- … and lane k; -/
theorem lhs_lane (i : S1024x1024.Idx) (k : dot_S1024x512_S1024x512_S1024x1024_1_1_0_0_n_n.contr.Idx) : (dot_S1024x512_S1024x512_S1024x1024_1_1_0_0_n_n.lhsIdx i k 1).val = (k ⟨0, by decide⟩).val :=
  dot_S1024x512_S1024x512_S1024x1024_1_1_0_0_n_n.lhsIdx_val_of_single rfl i k
/-- the right operand at row q … -/
theorem rhs_row (i : S1024x1024.Idx) (k : dot_S1024x512_S1024x512_S1024x1024_1_1_0_0_n_n.contr.Idx) : (dot_S1024x512_S1024x512_S1024x1024_1_1_0_0_n_n.rhsIdx i k 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
/-- … and lane k. -/
theorem rhs_lane (i : S1024x1024.Idx) (k : dot_S1024x512_S1024x512_S1024x1024_1_1_0_0_n_n.contr.Idx) : (dot_S1024x512_S1024x512_S1024x1024_1_1_0_0_n_n.rhsIdx i k 1).val = (k ⟨0, by decide⟩).val :=
  dot_S1024x512_S1024x512_S1024x1024_1_1_0_0_n_n.rhsIdx_val_of_single rfl i k

/-- The matrix product of the two blocks into a zero accumulator: entry (p, q) is the sum over k of the first block's
    (p, k) times the second block's (q, k). -/
theorem product_at (x y : Vec Ideal S1x1024x512 .f32) (p q : Fin 1024) :
    matmul (F := Ideal) dot_S1024x512_S1024x512_S1024x1024_1_1_0_0_n_n none
        (truncf .bf16 (shapeCast S1024x512 x shapeCasts_S1x1024x512_S1024x512) bitsLt_bf16_f32)
        (truncf .bf16 (shapeCast S1024x512 y shapeCasts_S1x1024x512_S1024x512) bitsLt_bf16_f32)
        (constant S1024x1024 .f32 0x00000000#32) (ix2 p q)
      = ∑ k : Fin 512, x (ix3 (0 : Fin 1) p k) * y (ix3 (0 : Fin 1) q k) := by
  refine (Ideal.matmul_constant_zero_apply dot_S1024x512_S1024x512_S1024x1024_1_1_0_0_n_n none _ _ (ix2 p q)).trans ?_
  rw [← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k := funext fun a => Fin.ext (by
    match a with
    | ⟨0, _⟩ => exact lhs_row _ _
    | ⟨1, _⟩ => exact (lhs_lane _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k := funext fun a => Fin.ext (by
    match a with
    | ⟨0, _⟩ => exact rhs_row _ _
    | ⟨1, _⟩ => exact (rhs_lane _ _).trans hk)
  rw [el, er]
  show shapeCast S1024x512 x shapeCasts_S1x1024x512_S1024x512 (ix2 p k) * shapeCast S1024x512 y shapeCasts_S1x1024x512_S1024x512 (ix2 q k) = _
  rw [shapeCast_1ab_ab_apply x shapeCasts_S1x1024x512_S1024x512 p k, shapeCast_1ab_ab_apply y shapeCasts_S1x1024x512_S1024x512 q k]

/-- What the body stores, at entry (p, q) of its one batch. -/
theorem stored_at (x y : Vec Ideal S1x1024x512 .f32) (r : Vec Ideal S1x1x1024 .f32) (u : Fin 1) (p q : Fin 1024) :
    k0_pay1 (F := Ideal) x y r (ix3 u p q)
      = Ideal.sqrt (max (((∑ k : Fin 512, x (ix3 (0 : Fin 1) p k) * x (ix3 (0 : Fin 1) p k)) + r (ix3 (0 : Fin 1) (0 : Fin 1) q))
          - Ideal.ofBits .f32 0x40000000#32 * ∑ k : Fin 512, x (ix3 (0 : Fin 1) p k) * y (ix3 (0 : Fin 1) q k))
          (Ideal.ofBits .f32 0x00000000#32)) := by
  unfold k0_pay1
  refine (shapeCast_ab_1ab_apply _ shapeCasts_S1024x1024_S1x1024x1024 u p q).trans ?_
  exact congrArg Ideal.sqrt (congrArg₂ max (congrArg₂ (· - ·) (congrArg₂ (· + ·) (laneSums_at x _ _ p q) (givenRow_at r p q))
    (congrArg (Ideal.ofBits .f32 0x40000000#32 * ·) (product_at x y p q))) rfl)

end Cert.PairDist.Body

end
-- ==== Proof.EntryRows.lean ====
/-
  What the kernel's program puts in the array its third window stages, before the call: the second argument's squares
  summed along each row (from the zero word, which adds nothing), the sums kept as a trailing unit axis and that axis
  then swapped with the row axis. So entry (b, 0, q) of that array is the squared length of row q of batch b of the
  second argument.
-/
import proofs.«182139_j22548578304599_2_alg».proof.Proof.Gen.KernelIdeal.Frame
import proofs.«182139_j22548578304599_2_alg».proof.Proof.Distance
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

open scoped BigOperators

namespace Cert.PairDist.Entry

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- A sum along the rows' 512 entries, started from the zero word: entry (b, q) is the plain sum of row q of batch b. -/
theorem rowSums_apply (y : (⟨S16x1024x512, .f32⟩ : BufTy).Contents (Elt Ideal)) (b : Fin 16) (q : Fin 1024) :
    Host.reduceAdd (F := Ideal) y (constant (F := Ideal) S_ .f32 0x00000000#32) reducesTo_S16x1024x512_S16x1024_d2 h_S_ (ix2 b q)
      = ∑ k : Fin 512, y (ix3 b q k) := by
  simp only [Host.reduceAdd, Ideal.hostReduceAdd_def]
  rw [Ideal.hostReduceAdd_single reducesTo_S16x1024x512_S16x1024_d2 (by decide)]
  show Ideal.ofBits .f32 0x00000000#32 + _ = _
  rw [Ideal.ofBits_zero_f32, zero_add]
  refine Finset.sum_congr rfl fun (k : Fin 512) _ => ?_
  exact congrArg y (funext fun a => Fin.ext (by match a with | ⟨0, _⟩ => rfl | ⟨1, _⟩ => rfl | ⟨2, _⟩ => rfl))

/-- The staged array as the region finds it: the operations before the call, composed. -/
theorem givenRows_eq (c : Dev nD) :
    (V m c main_v3 : S16x1x1024.Idx → EReal)
      = transpose S16x1x1024 [0, 2, 1] (broadcastInDim S16x1024x1 ![0, 1] bcast_S16x1024_S16x1024x1_0_1
          (Host.reduceAdd (F := Ideal) (mulf (m ((c : Thread nD τ).loc main_arg1)) (m ((c : Thread nD τ).loc main_arg1)))
            (constant (F := Ideal) S_ .f32 0x00000000#32) reducesTo_S16x1024x512_S16x1024_d2 h_S_))
          transposes_S16x1024x1_S16x1x1024_0_2_1 := by
  dsimp only [V, hostOps0]
  after_results

/-- Entry (b, 0, q) of the staged array is the squared length of row q of batch b of the second argument. -/
theorem givenRows_at (c : Dev nD) (b : Fin 16) (q : Fin 1024) :
    (V m c main_v3 : S16x1x1024.Idx → EReal) (ix3 b (0 : Fin 1) q) = sqLen (m ((c : Thread nD τ).loc main_arg1)) b q := by
  refine (congrFun (givenRows_eq m c) _).trans ?_
  refine (transpose_ix3_021_apply _ transposes_S16x1024x1_S16x1x1024_0_2_1 b (0 : Fin 1) q).trans ?_
  refine (broadcastInDim_apply _ bcast_S16x1024_S16x1024x1_0_1 _ (ix3 b q (0 : Fin 1)) (ix2 b q) (fun a => ?_)).trans ?_
  · match a with
    | ⟨0, _⟩ => show b.val = if (16 : Nat) = 1 then 0 else b.val; rw [if_neg (by decide)]
    | ⟨1, _⟩ => show q.val = if (1024 : Nat) = 1 then 0 else q.val; rw [if_neg (by decide)]
  refine (rowSums_apply _ b q).trans ?_
  rfl

end Cert.PairDist.Entry

end
-- ==== Proof.KernelDistance.lean ====
/-
  The kernel's result array is the table of distances. The grid has one point per batch. At point t the body is given
  batch t of each argument and row t of the staged squared lengths, so what it stores is batch t of the table; each
  point writes its batch back, the sixteen batches tile the result array, and so the array ends holding the whole table.
-/
import proofs.«182139_j22548578304599_2_alg».proof.Proof.Gen.KernelIdeal.Value
import proofs.«182139_j22548578304599_2_alg».proof.Proof.Distance
import proofs.«182139_j22548578304599_2_alg».proof.Proof.BodyDistance
import proofs.«182139_j22548578304599_2_alg».proof.Proof.EntryRows

noncomputable section

open scoped BigOperators

namespace Cert.PairDist.Kernel

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem offsets_zero : (![0, 0, 0] : Fin 3 → Nat) = fun _ => 0 := funext fun a => by fin_cases a <;> rfl

/-- At point t every window's block sits at batch t, and at 0 along the other two axes. -/
theorem block_indices : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- The first window's block at point t is batch t of the first argument. -/
theorem firstBlock_at (c : Dev nD) (t : Fin cfg0.N) (b : Fin 16) (hb : b.val = t.val) (u : Fin 1) (p : Fin 1024) (k : Fin 512) :
    (iblk m c 0 t : Vec Ideal S1x1024x512 .f32) (ix3 u p k)
      = (m ((c : Thread nD τ).loc main_arg0) : S16x1024x512.Idx → EReal) (ix3 b p k) := by
  obtain ⟨⟨e0, e1, e2⟩, -, -, -⟩ := block_indices t
  unfold iblk
  rw [View.read_apply]
  show V m c main_arg0 _ = _
  rw [V_main_arg0]
  refine congrArg (m ((c : Thread nD τ).loc main_arg0) : S16x1024x512.Idx → EReal) (funext fun a => Fin.ext ?_)
  match a with
  | ⟨0, _⟩ => show win0_0.index t (0 : Fin 3) * 1 + 1 * u.val = b.val; have := u.isLt; omega
  | ⟨1, _⟩ => show win0_0.index t (1 : Fin 3) * 1024 + 1 * p.val = p.val; omega
  | ⟨2, _⟩ => show win0_0.index t (2 : Fin 3) * 512 + 1 * k.val = k.val; omega

/-- The second window's block at point t is batch t of the second argument. -/
theorem secondBlock_at (c : Dev nD) (t : Fin cfg0.N) (b : Fin 16) (hb : b.val = t.val) (u : Fin 1) (q : Fin 1024) (k : Fin 512) :
    (iblk m c 1 t : Vec Ideal S1x1024x512 .f32) (ix3 u q k)
      = (m ((c : Thread nD τ).loc main_arg1) : S16x1024x512.Idx → EReal) (ix3 b q k) := by
  obtain ⟨-, ⟨e0, e1, e2⟩, -, -⟩ := block_indices t
  unfold iblk
  rw [View.read_apply]
  show V m c main_arg1 _ = _
  rw [V_main_arg1]
  refine congrArg (m ((c : Thread nD τ).loc main_arg1) : S16x1024x512.Idx → EReal) (funext fun a => Fin.ext ?_)
  match a with
  | ⟨0, _⟩ => show win0_1.index t (0 : Fin 3) * 1 + 1 * u.val = b.val; have := u.isLt; omega
  | ⟨1, _⟩ => show win0_1.index t (1 : Fin 3) * 1024 + 1 * q.val = q.val; omega
  | ⟨2, _⟩ => show win0_1.index t (2 : Fin 3) * 512 + 1 * k.val = k.val; omega

/-- The third window's block at point t is row t of the staged squared lengths. -/
theorem rowBlock_at (c : Dev nD) (t : Fin cfg0.N) (b : Fin 16) (hb : b.val = t.val) (u v : Fin 1) (q : Fin 1024) :
    (iblk m c 2 t : Vec Ideal S1x1x1024 .f32) (ix3 u v q)
      = (V m c main_v3 : S16x1x1024.Idx → EReal) (ix3 b (0 : Fin 1) q) := by
  obtain ⟨-, -, ⟨e0, e1, e2⟩, -⟩ := block_indices t
  unfold iblk
  rw [View.read_apply]
  show V m c main_v3 _ = _
  refine congrArg (V m c main_v3 : S16x1x1024.Idx → EReal) (funext fun a => Fin.ext ?_)
  match a with
  | ⟨0, _⟩ => show win0_2.index t (0 : Fin 3) * 1 + 1 * u.val = b.val; have := u.isLt; omega
  | ⟨1, _⟩ => show win0_2.index t (1 : Fin 3) * 1 + 1 * v.val = 0; have := v.isLt; omega
  | ⟨2, _⟩ => show win0_2.index t (2 : Fin 3) * 1024 + 1 * q.val = q.val; omega

/-- One entry: if the body's three blocks are batch `b` of the two arrays and their squared lengths, then what it
    stores at an entry is the distance at the table's entry with the same row and column in batch `b`. -/
theorem stored_eq_dist (x y : Vec Ideal S1x1024x512 .f32) (r : Vec Ideal S1x1x1024 .f32) (A0 A1 : Cert.PairDist.Rows.Idx → EReal) (b : Fin 16)
    (hx : ∀ (p : Fin 1024) (k : Fin 512), x (ix3 (0 : Fin 1) p k) = A0 (ix3 b p k))
    (hy : ∀ (q : Fin 1024) (k : Fin 512), y (ix3 (0 : Fin 1) q k) = A1 (ix3 b q k))
    (hr : ∀ q : Fin 1024, r (ix3 (0 : Fin 1) (0 : Fin 1) q) = sqLen A1 b q)
    (j : S1x1024x1024.Idx) (i : Cert.PairDist.Table.Idx)
    (hi0 : (i 0).val = b.val) (hi1 : (i 1).val = (j 1).val) (hi2 : (i 2).val = (j 2).val) :
    k0_pay1 (F := Ideal) x y r j = dist A0 A1 i := by
  obtain ⟨u, p, q, rfl⟩ : ∃ (u : Fin 1) (p q : Fin 1024), j = ix3 u p q := ⟨j 0, j 1, j 2, eq_ix3 j⟩
  obtain ⟨b', p', q', rfl⟩ : ∃ (b' : Fin 16) (p' q' : Fin 1024), i = ix3 b' p' q' := ⟨i 0, i 1, i 2, eq_ix3 i⟩
  obtain rfl : b' = b := Fin.ext hi0
  obtain rfl : p' = p := Fin.ext hi1
  obtain rfl : q' = q := Fin.ext hi2
  rw [Cert.PairDist.Body.stored_at, dist_ix3]
  unfold distAt
  rw [hr]
  simp only [sqLen, inner, hx, hy]

/-- What point t writes back is batch t of the table of distances of the two arguments. -/
theorem flushed_eq (c : Dev nD) (t : Fin cfg0.N) :
    (dats m 0 c).flushed 3 t
      = ((cfg0.win 3).blk t).view.read (Elt Ideal) (dist (m ((c : Thread nD τ).loc main_arg0)) (m ((c : Thread nD τ).loc main_arg1))) := by
  have hN : cfg0.N = 16 := N_0
  have ht : t.val < 16 := by have := t.isLt; omega
  obtain ⟨-, -, -, e0, e1, e2⟩ := block_indices t
  rw [flushed3]
  unfold out0_3
  rw [View.canon_unit_zero offsets_zero]
  simp only [View.ld_unit_zero (S := S1x1024x512) offsets_zero, View.ld_unit_zero (S := S1x1x1024) offsets_zero]
  funext j
  show k0_pay1 (F := Ideal) (iblk m c 0 t) (iblk m c 1 t) (iblk m c 2 t) j
    = dist (m ((c : Thread nD τ).loc main_arg0)) (m ((c : Thread nD τ).loc main_arg1)) (((cfg0.win 3).blk t).view.emb j)
  have hj0 : (j 0).val < 1 := (j 0).isLt
  refine stored_eq_dist (iblk m c 0 t) (iblk m c 1 t) (iblk m c 2 t) _ _ ⟨t.val, ht⟩
    (fun p k => firstBlock_at m c t ⟨t.val, ht⟩ rfl 0 p k)
    (fun q k => secondBlock_at m c t ⟨t.val, ht⟩ rfl 0 q k)
    (fun q => (rowBlock_at m c t ⟨t.val, ht⟩ rfl 0 0 q).trans (Cert.PairDist.Entry.givenRows_at m c ⟨t.val, ht⟩ q))
    j _ ?_ ?_ ?_
  · show win0_3.index t (0 : Fin 3) * 1 + 1 * (j 0).val = t.val; omega
  · show win0_3.index t (1 : Fin 3) * 1024 + 1 * (j 1).val = (j 1).val; omega
  · show win0_3.index t (2 : Fin 3) * 1024 + 1 * (j 2).val = (j 2).val; omega

/-- An entry of the result array is in point t's block iff each coordinate is in the block's range on its axis. -/
theorem mem_block (t : Fin cfg0.N) (i : S16x1024x1024.Idx) :
    i ∈ ((cfg0.win 3).blk t).view.set ↔ ∀ a : Fin 3, win0_3.index t a * S1x1024x1024.size a ≤ (i a).val ∧ (i a).val < win0_3.index t a * S1x1024x1024.size a + S1x1024x1024.size a := by
  show i ∈ ((View.whole main_v4).slice (win0_3.rect t)).set ↔ _
  rw [View.set_slice_whole, Rect.mem_set_unit]
  exact Iff.rfl

/-- Every entry of the result array lies in the block of the point of its batch. -/
theorem covered (i : S16x1024x1024.Idx) :
    ∃ t : Fin cfg0.N, (cfg0.win 3).flush t = true ∧ i ∈ ((cfg0.win 3).blk t).view.set := by
  have hN : cfg0.N = 16 := N_0
  have h0 : (i 0).val < 16 := (i 0).isLt
  have h1 : (i 1).val < 1024 := (i 1).isLt
  have h2 : (i 2).val < 1024 := (i 2).isLt
  have hlt : (i 0).val < cfg0.N := by omega
  obtain ⟨-, -, -, e0', e1, e2⟩ := block_indices ⟨(i 0).val, hlt⟩
  have e0 : win0_3.index ⟨(i 0).val, hlt⟩ (0 : Fin 3) = (i 0).val := e0'
  refine ⟨⟨(i 0).val, hlt⟩, flush0_3 _, ?_⟩
  rw [mem_block]
  intro a
  match a with
  | ⟨0, _⟩ =>
    show win0_3.index ⟨(i 0).val, hlt⟩ (0 : Fin 3) * 1 ≤ (i 0).val ∧ (i 0).val < win0_3.index ⟨(i 0).val, hlt⟩ (0 : Fin 3) * 1 + 1
    rw [e0]; exact ⟨by omega, by omega⟩
  | ⟨1, _⟩ =>
    show win0_3.index ⟨(i 0).val, hlt⟩ (1 : Fin 3) * 1024 ≤ (i 1).val ∧ (i 1).val < win0_3.index ⟨(i 0).val, hlt⟩ (1 : Fin 3) * 1024 + 1024
    rw [e1]; exact ⟨by omega, by omega⟩
  | ⟨2, _⟩ =>
    show win0_3.index ⟨(i 0).val, hlt⟩ (2 : Fin 3) * 1024 ≤ (i 2).val ∧ (i 2).val < win0_3.index ⟨(i 0).val, hlt⟩ (2 : Fin 3) * 1024 + 1024
    rw [e2]; exact ⟨by omega, by omega⟩

/-- The result array after the run is the table of distances of the two arguments. -/
theorem final (c : Dev nD) :
    (dats m 0 c).arrAt 3 cfg0.N = dist (m ((c : Thread nD τ).loc main_arg0)) (m ((c : Thread nD τ).loc main_arg1)) :=
  (dats m 0 c).arrAt_eq_of_cover 3 _ (fun t _ => flushed_eq m c t) covered

/-- The kernel's run: it terminates with the result array at the table of distances and the arguments unchanged. -/
theorem run : θ_run defs (onTc (τ := τ) (main (F := Ideal))) ⟨m, fun _ => 0, ρ⟩ fun r => ∀ c : Dev nD,
      r.2.mem ((c : Thread nD τ).loc main_v4) = dist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.PairDist.Kernel

end
-- ==== Proof.lean ====
/-
  Pairwise Euclidean distances, computed two ways. For 16 batches, each holding 1024 rows `x_p` of one array and 1024
  rows `y_q` of another (rows of 512 entries), both programs produce the 1024 × 1024 table
      d(p, q) = √ max (|x_p|² + |y_q|² − 2⟨x_p, y_q⟩, 0).
  The kernel handles one batch per grid point: it sums the squares of its x-rows along the lanes, is handed the
  squared lengths of its y-rows (summed before the call), multiplies the two blocks as matrices into a zero
  accumulator, and combines the three. The reference sums both arrays' squares row by row, takes one batched product
  contracted over a row's entries, and combines them in the same order with the same two constants. Over the extended
  reals a lane sum, a row sum and a matrix product contracted over one axis are each the plain sum over that axis, and
  a change of float format is the identity, so entry by entry the two results are the same expression: no algebraic law
  is needed to join them, and the finiteness of the inputs is never used.
  The pieces: `Proof/Distance.lean` states the table; `Proof/ReferenceDistance.lean` reads the reference's result as
  the table; `Proof/BodyDistance.lean` reads one stored entry of the kernel's body; `Proof/EntryRows.lean` reads the
  squared lengths summed before the call; `Proof/KernelDistance.lean` puts the sixteen batches together.
-/
import proofs.«182139_j22548578304599_2_alg».proof.Defs
import proofs.«182139_j22548578304599_2_alg».proof.Proof.Gen.Kernel
import proofs.«182139_j22548578304599_2_alg».proof.Proof.Gen.Kernel.Skeleton
import proofs.«182139_j22548578304599_2_alg».proof.Proof.Gen.Kernel.Launch
import proofs.«182139_j22548578304599_2_alg».proof.Proof.Gen.Kernel.Points
import proofs.«182139_j22548578304599_2_alg».proof.Proof.Gen.Kernel.Frame
import proofs.«182139_j22548578304599_2_alg».proof.Proof.Gen.KernelIdeal
import proofs.«182139_j22548578304599_2_alg».proof.Proof.Gen.KernelIdeal.Skeleton
import proofs.«182139_j22548578304599_2_alg».proof.Proof.Gen.KernelIdeal.Launch
import proofs.«182139_j22548578304599_2_alg».proof.Proof.Gen.KernelIdeal.Points
import proofs.«182139_j22548578304599_2_alg».proof.Proof.Gen.KernelIdeal.Frame
import proofs.«182139_j22548578304599_2_alg».proof.Proof.Gen.ReferenceIdeal
import proofs.«182139_j22548578304599_2_alg».proof.Proof.Gen.Pre_finite_inputs
import proofs.«182139_j22548578304599_2_alg».proof.Proof.Gen.KernelIdeal.Value
import proofs.«182139_j22548578304599_2_alg».proof.Proof.Gen.ReferenceIdeal.Run
import proofs.«182139_j22548578304599_2_alg».proof.Proof.Gen.ReferenceIdeal.Read
import proofs.«182139_j22548578304599_2_alg».proof.Proof.Distance
import proofs.«182139_j22548578304599_2_alg».proof.Proof.ReferenceDistance
import proofs.«182139_j22548578304599_2_alg».proof.Proof.KernelDistance
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs to the end and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals, so there is nothing to preserve. -/
theorem preserves : Cert.preserves_Kernel_KernelIdeal := trivial

/-- From memories that agree on the two arguments, the kernel's result array and the reference's result both end
    holding the table of distances of those arguments. -/
theorem algebraic : Cert.algebraic_KernelIdeal_ReferenceIdeal := by
  intro m ρ m' ρ' _ hagree
  refine ⟨fun c => Cert.PairDist.dist (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.PairDist.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.PairDist.Reference.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
